-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S4096x16384 : Shape := ⟨2, ![4096, 16384]⟩
abbrev S1x16384 : Shape := ⟨2, ![1, 16384]⟩
abbrev S8192x16384 : Shape := ⟨2, ![8192, 16384]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 21
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .i1⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | .hbm, ⟨17, _⟩ => ⟨S4096x16384, .bf16⟩
  | .hbm, ⟨18, _⟩ => ⟨S8192x4096, .bf16⟩
  | .hbm, ⟨19, _⟩ => ⟨S1x16384, .f32⟩
  | .hbm, ⟨20, _⟩ => ⟨S8192x16384, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bitsLt_bf16_f32 : FTy.bits .bf16 < FTy.bits .f32
  transposes_S16384x4096_S4096x16384_1_0 : S16384x4096.Transposes [1, 0] S4096x16384
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .bf16 = 32 ∨ (Rect.block (s := S4096x16384) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x16384.size a
  hwx0_3 : ∀ i : grid0.Coords, EltTy.bits .f32 = 32 ∨ (Rect.block (s := S8192x16384) S2048x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v12) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .i1⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S4096x16384, .f32⟩
  | .hbm, ⟨17, _⟩ => ⟨S8192x16384, .f32⟩
  | .hbm, ⟨18, _⟩ => ⟨S1x16384, .f32⟩
  | .hbm, ⟨19, _⟩ => ⟨S8192x16384, .f32⟩
  | .hbm, ⟨20, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Pieces.lean ====
/-
  What one grid step leaves behind, as values.

  A step of the kernel works on a [2048, 1024] accumulator kept across the steps of one output tile.  On the first
  contraction chunk it clears the accumulator and then adds the chunk's partial product; on every later chunk it adds
  the chunk's partial product to what the step before left; on the last chunk it also writes accumulator + bias row to
  the output tile.  Each statement below says that the contents found after a step are the step's arithmetic applied
  to the blocks the step loaded (and, after the first chunk, to the accumulator as the step before left it).  They hold
  for any reading of the floats.
-/
import proofs.«134780_j31688268709907_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- First chunk: the accumulator ends at (cleared accumulator) + (partial product of the two loaded blocks). -/
theorem acc_first (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz,
    View.ld_unit_zero (S := S1024x1024) hz]

/-- A middle chunk: the accumulator ends at (what the step before left) + (partial product of the two loaded blocks). -/
theorem acc_middle (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread, View.ld_unit_zero (S := S2048x1024) hz,
    View.ld_unit_zero (S := S1024x1024) hz]

/-- The last chunk: the accumulator likewise ends at (what the step before left) + (partial product). -/
theorem acc_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S2048x1024) hz,
    View.ld_unit_zero (S := S1024x1024) hz]

/-- The last chunk: the output tile ends at (the accumulator as this step leaves it) + (bias row, repeated down the rows). -/
theorem tile_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg7.read_unread, View.ld_unit_zero (S := S2048x1024) hz,
    View.ld_unit_zero (S := S1024x1024) hz, View.ld_unit_zero (S := S1x1024) hz]

end Cert.KernelIdeal.Steps

end
-- ==== Proof.Arith.lean ====
/-
  One grid step's arithmetic at a coordinate, over the extended reals.

  The accumulator update adds to entry (p, q) the inner product of row `p` of the loaded `x` block with column `q` of
  the loaded weight block (a matrix product into a zero accumulator is just that sum; the change of float format on the
  way in is the identity).  The cleared accumulator is zero everywhere.  The epilogue adds to entry (p, q) the entry `q`
  of the loaded bias row.
-/
import proofs.«134780_j31688268709907_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Arith

open Cert.KernelIdeal Cert.KernelIdeal.Gen

/-- The left operand's row coordinate is the output's row. -/
theorem lhs_row (i : S2048x1024.Idx) (k : dot_S2048x1024_S1024x1024_S2048x1024_1_0_0_1_n_n.contr.Idx) : (dot_S2048x1024_S1024x1024_S2048x1024_1_0_0_1_n_n.lhsIdx i k 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl

/-- The right operand's column coordinate is the output's column. -/
theorem rhs_col (i : S2048x1024.Idx) (k : dot_S2048x1024_S1024x1024_S2048x1024_1_0_0_1_n_n.contr.Idx) : (dot_S2048x1024_S1024x1024_S2048x1024_1_0_0_1_n_n.rhsIdx i k 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The left operand's index of the block product at output (p, q) and contraction position `o` is (p, o). -/
theorem lhs_at (p : Fin 2048) (q o : Fin 1024) :
    dot_S2048x1024_S1024x1024_S2048x1024_1_0_0_1_n_n.lhsIdx (ix2 p q) ((contrEquiv1 dot_S2048x1024_S1024x1024_S2048x1024_1_0_0_1_n_n 1024 rfl rfl).symm o) = ix2 p o := by
  have hk := contrEquiv1_symm_val dot_S2048x1024_S1024x1024_S2048x1024_1_0_0_1_n_n 1024 rfl rfl o
  refine funext fun a => Fin.ext ?_
  match a with
  | ⟨0, _⟩ => exact lhs_row _ _
  | ⟨1, _⟩ => exact (dot_S2048x1024_S1024x1024_S2048x1024_1_0_0_1_n_n.lhsIdx_val_of_single rfl _ _).trans hk

/-- The right operand's index there is (o, q). -/
theorem rhs_at (p : Fin 2048) (q o : Fin 1024) :
    dot_S2048x1024_S1024x1024_S2048x1024_1_0_0_1_n_n.rhsIdx (ix2 p q) ((contrEquiv1 dot_S2048x1024_S1024x1024_S2048x1024_1_0_0_1_n_n 1024 rfl rfl).symm o) = ix2 o q := by
  have hk := contrEquiv1_symm_val dot_S2048x1024_S1024x1024_S2048x1024_1_0_0_1_n_n 1024 rfl rfl o
  refine funext fun a => Fin.ext ?_
  match a with
  | ⟨0, _⟩ => exact (dot_S2048x1024_S1024x1024_S2048x1024_1_0_0_1_n_n.rhsIdx_val_of_single rfl _ _).trans hk
  | ⟨1, _⟩ => exact rhs_col _ _

/-- The cleared accumulator is zero at every entry. -/
theorem cleared_apply (j : S2048x1024.Idx) : k0_pay1 (F := Ideal) j = 0 := by
  unfold k0_pay1
  simp only [shapeCast_self]
  exact Ideal.ofBits_zero_f32

/-- The accumulator update at (p, q): the old entry plus the inner product of row `p` of `x` with column `q` of `w`. -/
theorem update_apply (acc : FVec Ideal S2048x1024 .f32) (x : FVec Ideal S2048x1024 .bf16) (w : FVec Ideal S1024x1024 .bf16)
    (p : Fin 2048) (q : Fin 1024) :
    k0_pay2 (F := Ideal) acc x w (ix2 p q) = acc (ix2 p q) + ∑ o : Fin 1024, x (ix2 p o) * w (ix2 o q) := by
  unfold k0_pay2
  simp only [shapeCast_self]
  refine congrArg (acc (ix2 p q) + ·) ((Ideal.matmul_constant_zero_apply dot_S2048x1024_S1024x1024_S2048x1024_1_0_0_1_n_n none x w (ix2 p q)).trans ?_)
  rw [← Equiv.sum_comp (contrEquiv1 dot_S2048x1024_S1024x1024_S2048x1024_1_0_0_1_n_n 1024 rfl rfl).symm]
  refine Finset.sum_congr rfl fun o _ => ?_
  rw [lhs_at, rhs_at]

/-- The epilogue at (p, q): the accumulator's entry plus entry `q` of the bias row. -/
theorem epilogue_apply (a : FVec Ideal S2048x1024 .f32) (bias : FVec Ideal S1x1024 .f32) (p : Fin 2048) (q : Fin 1024) :
    k0_pay3 (F := Ideal) a bias (ix2 p q) = a (ix2 p q) + bias (ix2 (0 : Fin 1) q) := by
  unfold k0_pay3
  simp only [shapeCast_self]
  exact congrArg (a (ix2 p q) + ·) (broadcastTo_1b_ab_apply bias broadcasts_S1x1024_S2048x1024 p q)

end Cert.KernelIdeal.Arith

end
-- ==== Proof.Accum.lean ====
/-
  The accumulator over one output tile's four grid steps.

  Step `n` contributes the partial product of its two loaded blocks,
      chunk n (p, q) = ∑ o < 1024, xblock n (p, o) · wblock n (o, q).
  On the first contraction chunk (`n % 4 = 0`) the accumulator becomes `0 + chunk n`; on the later ones it becomes
  (what the step before left) + `chunk n`.  Hence after step `t` the accumulator holds
      0 + ∑ s ≤ t % 4, chunk (4 · (t / 4) + s),
  and on the last chunk the output tile is that plus the bias row.
-/
import proofs.«134780_j31688268709907_2_alg».proof.Proof.Gen.KernelIdeal.Value
import proofs.«134780_j31688268709907_2_alg».proof.Proof.Pieces
import proofs.«134780_j31688268709907_2_alg».proof.Proof.Arith

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- The three blocks a grid step loads, as arrays of extended reals. -/
abbrev xblk (c : Dev nD) (t : Fin cfg0.N) : S2048x1024.Idx → EReal := iblk m c 0 t
abbrev wblk (c : Dev nD) (t : Fin cfg0.N) : S1024x1024.Idx → EReal := iblk m c 1 t
abbrev bblk (c : Dev nD) (t : Fin cfg0.N) : S1x1024.Idx → EReal := iblk m c 2 t

/-- The partial product grid step `n` contributes at an entry of the tile (zero past the grid, where it is never used). -/
def chunk (c : Dev nD) (n : ℕ) (i : S2048x1024.Idx) : EReal :=
  if h : n < cfg0.N then
    ∑ o : Fin 1024, xblk m c ⟨n, h⟩ (ix2 (i 0) o) * wblk m c ⟨n, h⟩ (ix2 o (i 1))
  else 0

theorem chunk_apply (c : Dev nD) (n : ℕ) (h : n < cfg0.N) (p : Fin 2048) (q : Fin 1024) :
    chunk m c n (ix2 p q) = ∑ o : Fin 1024, xblk m c ⟨n, h⟩ (ix2 p o) * wblk m c ⟨n, h⟩ (ix2 o q) := by
  unfold chunk
  rw [dif_pos h]

/-- One step of the accumulator at an entry: from zero on the first contraction chunk, from the previous contents on the
    others, plus the step's partial product. -/
theorem step_apply (c : Dev nD) (n : ℕ) (hb : n < cfg0.N) (acc : FVec Ideal S2048x1024 .f32) (p : Fin 2048) (q : Fin 1024) :
    Value.scAt0_0 m c n hb acc (ix2 p q) = (if n % 4 = 0 then 0 else acc (ix2 p q)) + chunk m c n (ix2 p q) := by
  rw [chunk_apply m c n hb]
  unfold Value.scAt0_0
  by_cases h0 : n % 4 = 0
  · have h1 : ¬ n % 4 = 3 := by omega
    rw [dif_pos h0, dif_neg h1, if_pos h0]
    refine (congrFun (Steps.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 p q)).trans ?_
    refine (Arith.update_apply _ _ _ p q).trans ?_
    rw [Arith.cleared_apply]
  · by_cases h1 : n % 4 = 3
    · rw [dif_neg h0, dif_pos h1, if_neg h0]
      refine (congrFun (Steps.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 p q)).trans ?_
      exact Arith.update_apply _ _ _ p q
    · rw [dif_neg h0, dif_neg h1, if_neg h0]
      refine (congrFun (Steps.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 p q)).trans ?_
      exact Arith.update_apply _ _ _ p q

/-- The accumulator after step `t`: zero plus the partial products of the tile's steps up to `t`. -/
theorem acc_apply (c : Dev nD) (t : Fin cfg0.N) (p : Fin 2048) (q : Fin 1024) :
    (outsAt0 m c t.val t.isLt).2 (ix2 p q) = 0 + ∑ s ∈ Finset.range (t.val % 4 + 1), chunk m c (4 * (t.val / 4) + s) (ix2 p q) := by
  rw [Value.soutsAt0_0_eq m c t]
  exact Pipeline.accAt_add_apply (ι := S2048x1024.Idx) (β := EReal)
    (fun n h => Value.scAt0_0 m c n h (VS0_0.read (Elt Ideal) VS0_0.junk)) (Value.scAt0_0 m c) (fun _ => 0) (chunk m c) (4 * (t.val / 4)) 3
    (fun h i => by
      obtain ⟨p, q, rfl⟩ : ∃ (p : Fin 2048) (q : Fin 1024), i = ix2 p q := ⟨i 0, i 1, eq_ix2 i⟩
      rw [step_apply, if_pos (by omega)])
    (fun n h acc i hlo hhi => by
      obtain ⟨p, q, rfl⟩ : ∃ (p : Fin 2048) (q : Fin 1024), i = ix2 p q := ⟨i 0, i 1, eq_ix2 i⟩
      rw [step_apply, if_neg (by omega)])
    (t.val % 4) (by omega) _ (ix2 p q)

/-- On the last contraction chunk the output tile is the accumulator as that step leaves it plus the bias row. -/
theorem tile_apply (c : Dev nD) (t : Fin cfg0.N) (h3 : t.val % 4 = 3) (p : Fin 2048) (q : Fin 1024) :
    (outsAt0 m c t.val t.isLt).1 (ix2 p q)
      = (outsAt0 m c t.val t.isLt).2 (ix2 p q) + bblk m c t (ix2 (0 : Fin 1) q) := by
  have h0 : ¬ t.val % 4 = 0 := by omega
  rw [outsAt0_C m c t h0 h3]
  dsimp only
  refine (congrFun (Steps.tile_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2) (ix2 p q)).trans ?_
  refine (Arith.epilogue_apply _ _ p q).trans ?_
  refine congrArg (· + bblk m c t (ix2 (0 : Fin 1) q)) ?_
  exact (congrFun (Steps.acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2) (ix2 p q)).symm

end Cert.KernelIdeal.Accum

end
-- ==== Proof.Entry.lean ====
/-
  What the tiled product finds when it starts, and which entries each grid step loads.

  Before the tiled product the program prepares its three operands: `x` (only its float format changes, which is the
  identity over the extended reals); the ternary weight, transposed to [4096, 16384]; and the bias as a single row
  [1, 16384].  The ternary weight keeps the sign of each entry whose magnitude is at least half the mean magnitude of the
  whole weight array and is zero elsewhere; it is carried here as ONE function `tern` of the weight array and never opened.

  The 256 grid steps are numbered `t = (ti · 16 + tj) · 4 + tk`: row tile `ti = t / 64` (2048 rows), column tile
  `tj = t / 4 % 16` (1024 columns), contraction chunk `tk = t % 4` (1024 positions).  Step `t` loads rows
  `2048 ti + p` and positions `1024 tk + o` of `x`, positions `1024 tk + o` and columns `1024 tj + q` of the transposed
  weight, and columns `1024 tj + q` of the bias row.
-/
import proofs.«134780_j31688268709907_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Entry

open Cert.KernelIdeal Cert.KernelIdeal.Gen

/-! ## The grid's index maps, in closed form -/

theorem xmap : ∀ t : Fin cfg0.N, win0_0.index t (0 : Fin 2) = t.val / 64 ∧ win0_0.index t (1 : Fin 2) = t.val % 4 :=
  (by decide +kernel : ∀ t : Fin grid0.N, win0_0.index t (0 : Fin 2) = t.val / 64 ∧ win0_0.index t (1 : Fin 2) = t.val % 4)
theorem wmap : ∀ t : Fin cfg0.N, win0_1.index t (0 : Fin 2) = t.val % 4 ∧ win0_1.index t (1 : Fin 2) = t.val / 4 % 16 :=
  (by decide +kernel : ∀ t : Fin grid0.N, win0_1.index t (0 : Fin 2) = t.val % 4 ∧ win0_1.index t (1 : Fin 2) = t.val / 4 % 16)
theorem bmap : ∀ t : Fin cfg0.N, win0_2.index t (0 : Fin 2) = 0 ∧ win0_2.index t (1 : Fin 2) = t.val / 4 % 16 :=
  (by decide +kernel : ∀ t : Fin grid0.N, win0_2.index t (0 : Fin 2) = 0 ∧ win0_2.index t (1 : Fin 2) = t.val / 4 % 16)
theorem omap : ∀ t : Fin cfg0.N, win0_3.index t (0 : Fin 2) = t.val / 64 ∧ win0_3.index t (1 : Fin 2) = t.val / 4 % 16 :=
  (by decide +kernel : ∀ t : Fin grid0.N, win0_3.index t (0 : Fin 2) = t.val / 64 ∧ win0_3.index t (1 : Fin 2) = t.val / 4 % 16)

/-! ## Which entries a step's blocks are -/

section Blocks

variable {F : FTy → Type} [FloatOps F]
variable (m : (ℓ : Loc nD τ sig) → Buf (Elt F) ℓ)

/-- Entry (p, o) of the `x` block of step `t` is entry (2048 ti + p, 1024 tk + o) of the prepared `x`. -/
theorem xblock_apply (c : Dev nD) (t : Fin cfg0.N) (p : Fin 2048) (o : Fin 1024) (i : S8192x4096.Idx)
    (h0 : (i 0).val = 2048 * (t.val / 64) + p.val) (h1 : (i 1).val = 1024 * (t.val % 4) + o.val) :
    (iblk m c 0 t : Vec F S2048x1024 .bf16) (ix2 p o) = V m c main_v12 i := by
  unfold iblk
  rw [View.read_apply]
  show V m c main_v12 (((cfg0.win 0).blk t).view.emb (ix2 p o)) = V m c main_v12 i
  refine congrArg (V m c main_v12) (funext fun a => Fin.ext ?_)
  match a with
  | ⟨0, _⟩ => show win0_0.index t 0 * 2048 + 1 * p.val = (i 0).val; rw [(xmap t).1, h0]; omega
  | ⟨1, _⟩ => show win0_0.index t 1 * 1024 + 1 * o.val = (i 1).val; rw [(xmap t).2, h1]; omega

/-- Entry (o, q) of the weight block of step `t` is entry (1024 tk + o, 1024 tj + q) of the transposed ternary weight. -/
theorem wblock_apply (c : Dev nD) (t : Fin cfg0.N) (o q : Fin 1024) (i : S4096x16384.Idx)
    (h0 : (i 0).val = 1024 * (t.val % 4) + o.val) (h1 : (i 1).val = 1024 * (t.val / 4 % 16) + q.val) :
    (iblk m c 1 t : Vec F S1024x1024 .bf16) (ix2 o q) = V m c main_v11 i := by
  unfold iblk
  rw [View.read_apply]
  show V m c main_v11 (((cfg0.win 1).blk t).view.emb (ix2 o q)) = V m c main_v11 i
  refine congrArg (V m c main_v11) (funext fun a => Fin.ext ?_)
  match a with
  | ⟨0, _⟩ => show win0_1.index t 0 * 1024 + 1 * o.val = (i 0).val; rw [(wmap t).1, h0]; omega
  | ⟨1, _⟩ => show win0_1.index t 1 * 1024 + 1 * q.val = (i 1).val; rw [(wmap t).2, h1]; omega

/-- Entry (0, q) of the bias block of step `t` is entry (0, 1024 tj + q) of the bias row. -/
theorem bblock_apply (c : Dev nD) (t : Fin cfg0.N) (q : Fin 1024) (i : S1x16384.Idx)
    (h0 : (i 0).val = 0) (h1 : (i 1).val = 1024 * (t.val / 4 % 16) + q.val) :
    (iblk m c 2 t : Vec F S1x1024 .f32) (ix2 (0 : Fin 1) q) = V m c main_v13 i := by
  unfold iblk
  rw [View.read_apply]
  show V m c main_v13 (((cfg0.win 2).blk t).view.emb (ix2 (0 : Fin 1) q)) = V m c main_v13 i
  refine congrArg (V m c main_v13) (funext fun a => Fin.ext ?_)
  match a with
  | ⟨0, _⟩ => show win0_2.index t 0 * 1 + 1 * 0 = (i 0).val; rw [(bmap t).1, h0]
  | ⟨1, _⟩ => show win0_2.index t 1 * 1024 + 1 * q.val = (i 1).val; rw [(bmap t).2, h1]; omega

end Blocks

/-! ## The prepared operands, over the extended reals -/

/-- The ternary weight: the sign of each entry whose magnitude is at least half the mean magnitude, zero elsewhere. -/
def tern (w : FVec Ideal S16384x4096 .f32) : FVec Ideal S16384x4096 .f32 :=
  mulf (Host.sign (F := Ideal) w) (uitofp (F := Ideal) .f32 (cmpf .oge (Host.absf (F := Ideal) w) (broadcastInDim S16384x4096 ![] bcast_S_S16384x4096
    (mulf (constant (F := Ideal) S_ .f32 0x3F000000#32) (Host.divf (F := Ideal) (Host.reduceAdd (F := Ideal) (Host.absf (F := Ideal) w) (constant (F := Ideal) S_ .f32 0x00000000#32) reducesTo_S16384x4096_S_d0_1 h_S_) (constant (F := Ideal) S_ .f32 0x4C800000#32))))))

variable (m : (ℓ : Loc nD τ sig) → Buf (Elt Ideal) ℓ)

/-- The prepared `x` is `x`. -/
theorem x_entry (c : Dev nD) (i : S8192x4096.Idx) :
    (V m c main_v12 : S8192x4096.Idx → EReal) i = (m ((c : Thread nD τ).loc main_arg0) : S8192x4096.Idx → EReal) i := by
  have e : (V m c main_v12 : S8192x4096.Idx → EReal)
      = (truncf (F := Ideal) (s := S8192x4096) .bf16 (m ((c : Thread nD τ).loc main_arg0)) bitsLt_bf16_f32 : S8192x4096.Idx → EReal) := by
    dsimp only [Gen.V, Gen.hostOps0]; after_results
  rw [e]; rfl

/-- The prepared weight at (k, j) is the ternary weight at (j, k). -/
theorem w_entry (c : Dev nD) (k : Fin 4096) (j : Fin 16384) :
    (V m c main_v11 : S4096x16384.Idx → EReal) (ix2 k j) = tern (m ((c : Thread nD τ).loc main_arg1)) (ix2 j k) := by
  have e : (V m c main_v11 : S4096x16384.Idx → EReal)
      = transpose S4096x16384 [1, 0] (truncf .bf16 (tern (m ((c : Thread nD τ).loc main_arg1))) bitsLt_bf16_f32) transposes_S16384x4096_S4096x16384_1_0 := by
    dsimp only [Gen.V, Gen.hostOps0]; after_results; rfl
  rw [e]
  exact transpose_ix2_apply _ transposes_S16384x4096_S4096x16384_1_0 k j

/-- The bias row at (0, j) is the bias at `j`. -/
theorem b_entry (c : Dev nD) (j : Fin 16384) :
    (V m c main_v13 : S1x16384.Idx → EReal) (ix2 (0 : Fin 1) j) = (m ((c : Thread nD τ).loc main_arg2) : S16384.Idx → EReal) (ix1 j) := by
  have e : (V m c main_v13 : S1x16384.Idx → EReal) = shapeCast S1x16384 (m ((c : Thread nD τ).loc main_arg2)) shapeCasts_S16384_S1x16384 := by
    dsimp only [Gen.V, Gen.hostOps0]; after_results; rfl
  rw [e]
  exact shapeCast_a_1a_apply _ shapeCasts_S16384_S1x16384 0 j

end Cert.KernelIdeal.Entry

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.Spec.lean ====
/-
  The ternarized linear layer, as one function of its arrays.

  With `x` of extent [8192, 4096], a ternary weight `tw` of extent [16384, 4096] and a bias `b` of extent [16384],
  entry (r, c) of the result is the inner product of row `r` of `x` with row `c` of `tw`, plus `b c`:

      out (r, c) = (∑ k < 4096, x (r, k) · tw (c, k)) + b c.

  The contraction axis may be cut into four consecutive chunks of 1024: the sum of the four chunks' partial inner
  products is the whole inner product.  Only associativity and commutativity of addition are used, so the statement
  holds on the extended reals with no finiteness assumption.
-/
import Idealize.ShloMosaic.PureOps.Ideal
import Idealize.ShloMosaic.Lib.ValueIdx
import proofs.«134780_j31688268709907_2_alg».proof.Proof.LibSumBlocks

noncomputable section

open scoped BigOperators
open Idealize.ShloMosaic Idealize.ShloMosaic.ValueIdx

namespace TernaryLinear

/-- Entry (r, c) of the layer's result: row `r` of `x` against row `c` of the ternary weight, plus the bias at `c`. -/
def out (x : (⟨2, ![8192, 4096]⟩ : Shape).Idx → EReal) (tw : (⟨2, ![16384, 4096]⟩ : Shape).Idx → EReal)
    (b : (⟨1, ![16384]⟩ : Shape).Idx → EReal) : (⟨2, ![8192, 16384]⟩ : Shape).Idx → EReal :=
  fun i => (∑ k : Fin 4096, x (ix2 (i 0) k) * tw (ix2 (i 1) k)) + b (ix1 (i 1))

/-- Position `o` of chunk `s` of the contraction axis: `1024 · s + o`. -/
def kAt (s : Fin 4) (o : Fin 1024) : Fin 4096 := ⟨1024 * s.val + o.val, by have := s.isLt; have := o.isLt; omega⟩

@[simp] theorem kAt_val (s : Fin 4) (o : Fin 1024) : (kAt s o).val = 1024 * s.val + o.val := rfl

/-- A sum over the contraction axis is the sum, over the four chunks, of each chunk's sum: when `g s` is chunk `s`'s
    sum for `s < 4`, the first four values of `g` add up to the whole sum. -/
theorem sum_chunks (f : Fin 4096 → EReal) (g : ℕ → EReal)
    (hg : ∀ s : Fin 4, g s.val = ∑ o : Fin 1024, f (kAt s o)) :
    ∑ s ∈ Finset.range 4, g s = ∑ k : Fin 4096, f k := by
  rw [SumBlocks.sum_eq (m := 4) (n := 1024) (N := 4096) rfl f, ← Fin.sum_univ_eq_sum_range g 4]
  refine Finset.sum_congr rfl fun s _ => (hg s).trans (Finset.sum_congr rfl fun o _ => congrArg f (Fin.ext ?_))
  show 1024 * s.val + o.val = s.val * 1024 + o.val
  rw [Nat.mul_comm]

end TernaryLinear

end
-- ==== Proof.Tile.lean ====
/-
  The output tile a last step writes is the layer's function on that tile.

  On the last contraction chunk of the tile with row tile `ti = t / 64` and column tile `tj = t / 4 % 16`, entry (p, q) of
  the output tile is
      (0 + ∑ s < 4, chunk (4 · (t / 4) + s) (p, q)) + bias row (1024 tj + q),
  and chunk `s` of that tile reads `x` at (2048 ti + p, 1024 s + o) and the ternary weight at (1024 tj + q, 1024 s + o).
  The four chunks' sums add up to the whole inner product over the 4096 positions, so the entry is the layer's result
  at (2048 ti + p, 1024 tj + q).
-/
import proofs.«134780_j31688268709907_2_alg».proof.Proof.Accum
import proofs.«134780_j31688268709907_2_alg».proof.Proof.Entry
import proofs.«134780_j31688268709907_2_alg».proof.Proof.Spec

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen

variable (m : (ℓ : Loc nD τ sig) → Buf (Elt Ideal) ℓ)

/-- The launch contents of the three arguments as arrays of extended reals: `x`, the ternary weight of `w`, the bias. -/
abbrev xs (c : Dev nD) : S8192x4096.Idx → EReal := m ((c : Thread nD τ).loc main_arg0)
abbrev tw (c : Dev nD) : S16384x4096.Idx → EReal := Entry.tern (m ((c : Thread nD τ).loc main_arg1))
abbrev bs (c : Dev nD) : S16384.Idx → EReal := m ((c : Thread nD τ).loc main_arg2)

/-- The layer's result from the launch contents of the three arguments: the kernel's whole result array. -/
def result (c : Dev nD) : S8192x16384.Idx → EReal := TernaryLinear.out (xs m c) (tw m c) (bs m c)

/-- The products summed in entry (r, cc) of the result, by contraction position. -/
def prods (c : Dev nD) (r : Fin 8192) (cc : Fin 16384) (k : Fin 4096) : EReal := xs m c (ix2 r k) * tw m c (ix2 cc k)

/-- Chunk `s` of the tile of step `t`, at entry (p, q): the products of `x` row `r` and ternary weight row `cc` over the
    chunk's 1024 positions, where (r, cc) is the array entry that (p, q) is in the tile. -/
theorem chunk_eq (c : Dev nD) (t : Fin cfg0.N) (s : Fin 4) (p : Fin 2048) (q : Fin 1024) (r : Fin 8192) (cc : Fin 16384)
    (hr : r.val = 2048 * (t.val / 64) + p.val) (hc : cc.val = 1024 * (t.val / 4 % 16) + q.val) :
    Accum.chunk m c (4 * (t.val / 4) + s.val) (ix2 p q) = ∑ o : Fin 1024, prods m c r cc (TernaryLinear.kAt s o) := by
  have hN : t.val < 256 := lt_of_lt_of_eq t.isLt (show cfg0.N = 256 from N_0)
  have hs := s.isLt
  have hn : 4 * (t.val / 4) + s.val < cfg0.N :=
    lt_of_lt_of_eq (by omega : 4 * (t.val / 4) + s.val < 256) (show (256 : ℕ) = cfg0.N from N_0.symm)
  rw [Accum.chunk_apply m c _ hn]
  refine Finset.sum_congr rfl fun o _ => ?_
  have ex : Accum.xblk m c ⟨4 * (t.val / 4) + s.val, hn⟩ (ix2 p o) = xs m c (ix2 r (TernaryLinear.kAt s o)) :=
    (Entry.xblock_apply m c ⟨4 * (t.val / 4) + s.val, hn⟩ p o (ix2 r (TernaryLinear.kAt s o))
      (by show r.val = 2048 * ((4 * (t.val / 4) + s.val) / 64) + p.val; omega)
      (by show 1024 * s.val + o.val = 1024 * ((4 * (t.val / 4) + s.val) % 4) + o.val; omega)).trans
    (Entry.x_entry m c (ix2 r (TernaryLinear.kAt s o)))
  have ew : Accum.wblk m c ⟨4 * (t.val / 4) + s.val, hn⟩ (ix2 o q) = tw m c (ix2 cc (TernaryLinear.kAt s o)) :=
    (Entry.wblock_apply m c ⟨4 * (t.val / 4) + s.val, hn⟩ o q (ix2 (TernaryLinear.kAt s o) cc)
      (by show 1024 * s.val + o.val = 1024 * ((4 * (t.val / 4) + s.val) % 4) + o.val; omega)
      (by show cc.val = 1024 * ((4 * (t.val / 4) + s.val) / 4 % 16) + q.val; omega)).trans
    (Entry.w_entry m c (TernaryLinear.kAt s o) cc)
  rw [ex, ew]
  rfl

/-- The output tile of a last step, at entry (p, q), is the layer's result at the array entry `i` that (p, q) is. -/
theorem tile_eq (c : Dev nD) (t : Fin cfg0.N) (h3 : t.val % 4 = 3) (p : Fin 2048) (q : Fin 1024) (i : S8192x16384.Idx)
    (hr : (i 0).val = 2048 * (t.val / 64) + p.val) (hc : (i 1).val = 1024 * (t.val / 4 % 16) + q.val) :
    (outsAt0 m c t.val t.isLt).1 (ix2 p q) = result m c i := by
  obtain ⟨r, cc, rfl⟩ : ∃ (r : Fin 8192) (cc : Fin 16384), i = ix2 r cc := ⟨i 0, i 1, eq_ix2 i⟩
  have hacc : (outsAt0 m c t.val t.isLt).2 (ix2 p q) = 0 + ∑ s ∈ Finset.range 4, Accum.chunk m c (4 * (t.val / 4) + s) (ix2 p q) := by
    have h := Accum.acc_apply m c t p q
    rw [h3] at h
    exact h
  have hb : Accum.bblk m c t (ix2 (0 : Fin 1) q) = bs m c (ix1 cc) :=
    (Entry.bblock_apply m c t q (ix2 (0 : Fin 1) cc) rfl hc).trans (Entry.b_entry m c cc)
  rw [Accum.tile_apply m c t h3 p q, hacc, hb,
    TernaryLinear.sum_chunks (prods m c r cc) (fun s => Accum.chunk m c (4 * (t.val / 4) + s) (ix2 p q))
      (fun s => chunk_eq m c t s p q r cc hr hc), zero_add]
  rfl

end Cert.KernelIdeal.Tile

end
-- ==== Proof.KernelValue.lean ====
/-
  The tiled product's result array.

  Output tile (ti, tj) is written back once, by the last contraction step of that tile (grid step
  `(ti · 16 + tj) · 4 + 3`), and what is written is the layer's function restricted to the tile.  Entry (r, c) of the
  result lies in tile (r / 2048, c / 1024), so the 64 tiles cover the array and the array ends holding the layer's
  function everywhere; the three arguments are left as they were.
-/
import proofs.«134780_j31688268709907_2_alg».proof.Proof.Tile

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- What a last step writes back is its tile of the layer's result. -/
theorem flushed_eq (c : Dev nD) (t : Fin cfg0.N) (hf : (cfg0.win 3).flush t = true) :
    (dats m 0 c).flushed 3 t = ((cfg0.win 3).blk t).view.read (Elt Ideal) (Tile.result m c) := by
  have h3 : t.val % 4 = 3 := (flush0_3 t).mp hf
  rw [Value.flushed3]
  funext j
  obtain ⟨p, q, rfl⟩ : ∃ (p : Fin 2048) (q : Fin 1024), j = ix2 p q := ⟨j 0, j 1, eq_ix2 j⟩
  show (outsAt0 m c t.val t.isLt).1 (ix2 p q) = Tile.result m c (((cfg0.win 3).blk t).view.emb (ix2 p q))
  refine Tile.tile_eq m c t h3 p q _ ?_ ?_
  · show win0_3.index t 0 * 2048 + 1 * p.val = 2048 * (t.val / 64) + p.val
    rw [(Entry.omap t).1]; omega
  · show win0_3.index t 1 * 1024 + 1 * q.val = 1024 * (t.val / 4 % 16) + q.val
    rw [(Entry.omap t).2]; omega

/-- An entry of the array is in step `t`'s tile iff each coordinate is in the tile's range on its axis. -/
theorem mem_tile (t : Fin cfg0.N) (i : S8192x16384.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v14).slice (win0_3.rect t)).set ↔ _
  rw [View.set_slice_whole, Rect.mem_set_unit]
  exact Iff.rfl

/-- Every entry lies in the tile some last step writes back. -/
theorem covered (i : S8192x16384.Idx) :
    ∃ t : Fin cfg0.N, (cfg0.win 3).flush t = true ∧ i ∈ ((cfg0.win 3).blk t).view.set := by
  have h0 : (i 0).val < 8192 := (i 0).isLt
  have h1 : (i 1).val < 16384 := (i 1).isLt
  have hN : cfg0.N = 256 := N_0
  refine ⟨⟨((i 0).val / 2048 * 16 + (i 1).val / 1024) * 4 + 3, by rw [hN]; omega⟩, (flush0_3 _).mpr (by show (((i 0).val / 2048 * 16 + (i 1).val / 1024) * 4 + 3) % 4 = 3; omega), ?_⟩
  rw [mem_tile]
  intro a
  match a with
  | ⟨0, _⟩ =>
    show win0_3.index _ 0 * 2048 ≤ (i 0).val ∧ (i 0).val < win0_3.index _ 0 * 2048 + 2048
    rw [(Entry.omap _).1]
    show (((i 0).val / 2048 * 16 + (i 1).val / 1024) * 4 + 3) / 64 * 2048 ≤ (i 0).val ∧ (i 0).val < (((i 0).val / 2048 * 16 + (i 1).val / 1024) * 4 + 3) / 64 * 2048 + 2048
    omega
  | ⟨1, _⟩ =>
    show win0_3.index _ 1 * 1024 ≤ (i 1).val ∧ (i 1).val < win0_3.index _ 1 * 1024 + 1024
    rw [(Entry.omap _).2]
    show (((i 0).val / 2048 * 16 + (i 1).val / 1024) * 4 + 3) / 4 % 16 * 1024 ≤ (i 1).val ∧ (i 1).val < (((i 0).val / 2048 * 16 + (i 1).val / 1024) * 4 + 3) / 4 % 16 * 1024 + 1024
    omega

/-- So the result array ends holding the layer's result. -/
theorem final (c : Dev nD) : (dats m 0 c).arrAt 3 cfg0.N = Tile.result m c :=
  (dats m 0 c).arrAt_eq_of_cover 3 (Tile.result m c) (flushed_eq m c) covered

/-- The run, read: the result array at the layer's result, the three arguments unchanged. -/
theorem run : θ_run defs (onTc (τ := τ) (main (F := Ideal))) ⟨m, fun _ => 0, ρ⟩ fun r => ∀ c : Dev nD,
      r.2.mem ((c : Thread nD τ).loc main_v14) = Tile.result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference computes the layer's function.

  The reference forms the ternary weight (`val_main_v9`: sign times the magnitude mask), transposes it, contracts `x` with
  it over the 4096 positions, and adds the bias broadcast down the rows.  Read at an output entry (r, c) that is
  `(∑ k, x (r, k) · tw (c, k)) + b c`: the transpose only swaps the two coordinates of the weight, and the two
  broadcasts only select the bias entry `c`.
-/
import proofs.«134780_j31688268709907_2_alg».proof.Proof.Gen.ReferenceIdeal.Read
import proofs.«134780_j31688268709907_2_alg».proof.Proof.Spec

noncomputable section

open scoped BigOperators
open Idealize.ShloMosaic Idealize.ShloMosaic.ValueIdx

namespace Cert.ReferenceIdeal.RefValue

open Cert.ReferenceIdeal Cert.ReferenceIdeal.Read

/-- The left factor of the contraction at output (r, c) and position `k` is `x` at (r, k). -/
theorem x_index (i : S8192x16384.Idx) (k : Fin 4096) : lidx_main_v11 i k = ix2 (i 0) k :=
  funext fun a => Fin.ext (by match a with | ⟨0, _⟩ => rfl | ⟨1, _⟩ => rfl)

/-- The right factor, read through the transpose, is the ternary weight at (c, k). -/
theorem w_index (i : S8192x16384.Idx) (k : Fin 4096) : idx_main_v10 (ridx_main_v11 i k) = ix2 (i 1) k :=
  funext fun a => Fin.ext (by match a with | ⟨0, _⟩ => rfl | ⟨1, _⟩ => rfl)

/-- The bias, read through its two broadcasts, is taken at `c`. -/
theorem b_index (i : S8192x16384.Idx) : idx_main_v12 (idx_main_v13 i) = ix1 (i 1) :=
  funext fun a => Fin.ext (by match a with | ⟨0, _⟩ => rfl)

/-- The reference's result is the layer's function of `x`, the ternary weight and the bias. -/
theorem result_eq (x0 : FVec Ideal S8192x4096 .f32) (x1 : FVec Ideal S16384x4096 .f32) (x2 : FVec Ideal S16384 .f32) :
    val_main_v14 (F := Ideal) x0 x1 x2 = TernaryLinear.out x0 (val_main_v9 (F := Ideal) x1) x2 := by
  funext i
  rw [val_main_v14_apply, val_main_v11_apply, val_main_v13_apply, val_main_v12_apply, b_index]
  simp only [val_main_v10_apply, x_index, w_index]
  rfl

end Cert.ReferenceIdeal.RefValue

end
-- ==== Proof.Bridge.lean ====
/-
  Both programs ternarize the weight by the same operations with the same constants (magnitude, sum, division by the
  number of entries 2^26, half of that, comparison, sign, product), so the two ternary weights are one function of the
  weight array; and then the reference's result, on the kernel's arguments, is the kernel's result array.
-/
import proofs.«134780_j31688268709907_2_alg».proof.Proof.Tile
import proofs.«134780_j31688268709907_2_alg».proof.Proof.RefValue

noncomputable section

open Idealize.ShloMosaic Idealize.ShloMosaic.TcCoe Idealize.SL.Sem

namespace Cert.Bridge

/-- The kernel's ternary weight is the reference's. -/
theorem tern_eq (w : FVec Ideal Cert.KernelIdeal.S16384x4096 .f32) :
    Cert.KernelIdeal.Entry.tern w = Cert.ReferenceIdeal.Read.val_main_v9 (F := Ideal) w := rfl

/-- The reference's result on the kernel's launch contents is the kernel's result array. -/
theorem ref_eq_kernel (m : (ℓ : Loc Cert.KernelIdeal.nD Cert.KernelIdeal.τ Cert.KernelIdeal.sig) → Buf (Elt Ideal) ℓ) (c : Dev Cert.KernelIdeal.nD) :
    Cert.ReferenceIdeal.Read.val_main_v14 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
      = Cert.KernelIdeal.Tile.result m c := by
  rw [Cert.ReferenceIdeal.RefValue.result_eq]
  show TernaryLinear.out _ (Cert.ReferenceIdeal.Read.val_main_v9 (F := Ideal) _) _
    = TernaryLinear.out _ (Cert.KernelIdeal.Entry.tern (m ((c : Thread Cert.KernelIdeal.nD Cert.KernelIdeal.τ).loc Cert.KernelIdeal.main_arg1))) _
  rw [tern_eq]

end Cert.Bridge

end
-- ==== Proof.lean ====
/-
  A ternarized linear layer: `out = x · tern(w)ᵀ + b` for `x` [8192, 4096], `w` [16384, 4096], `b` [16384], where `tern(w)`
  keeps the sign of each weight whose magnitude is at least half the mean magnitude and is zero elsewhere.

  The kernel ternarizes the weight, transposes it, and computes the product tile by tile ([2048, 1024] tiles), cutting the
  4096 contraction positions into four chunks of 1024 accumulated in a scratch tile that starts from zero; the last chunk
  adds the bias row and writes the tile.  The reference ternarizes the weight by the same operations and contracts over
  all 4096 positions at once.  Over the extended reals the changes of float format are the identity, a matrix product is
  the plain sum of products, and the four chunks' partial sums add up to the whole sum (associativity and commutativity
  of addition only: no finiteness is used), so both programs end with
      out (r, c) = (∑ k < 4096, x (r, k) · tern(w) (c, k)) + b c.
  The two kernel programs' frames are those of the generated modules; the reference's frame is its run with the result
  dropped.  The idealized kernel is the kernel's own text read over the extended reals, so nothing is owed for it.
-/
import proofs.«134780_j31688268709907_2_alg».proof.Defs
import proofs.«134780_j31688268709907_2_alg».proof.Proof.Gen.Kernel
import proofs.«134780_j31688268709907_2_alg».proof.Proof.Gen.Kernel.Skeleton
import proofs.«134780_j31688268709907_2_alg».proof.Proof.Gen.Kernel.Launch
import proofs.«134780_j31688268709907_2_alg».proof.Proof.Gen.Kernel.Points
import proofs.«134780_j31688268709907_2_alg».proof.Proof.Gen.Kernel.Frame
import proofs.«134780_j31688268709907_2_alg».proof.Proof.Gen.KernelIdeal
import proofs.«134780_j31688268709907_2_alg».proof.Proof.Gen.KernelIdeal.Skeleton
import proofs.«134780_j31688268709907_2_alg».proof.Proof.Gen.KernelIdeal.Launch
import proofs.«134780_j31688268709907_2_alg».proof.Proof.Gen.KernelIdeal.Points
import proofs.«134780_j31688268709907_2_alg».proof.Proof.Gen.KernelIdeal.Frame
import proofs.«134780_j31688268709907_2_alg».proof.Proof.Gen.ReferenceIdeal
import proofs.«134780_j31688268709907_2_alg».proof.Proof.Gen.Pre_finite_inputs
import proofs.«134780_j31688268709907_2_alg».proof.Proof.Gen.KernelIdeal.Value
import proofs.«134780_j31688268709907_2_alg».proof.Proof.Gen.ReferenceIdeal.Run
import proofs.«134780_j31688268709907_2_alg».proof.Proof.Gen.ReferenceIdeal.Read
import proofs.«134780_j31688268709907_2_alg».proof.Proof.KernelValue
import proofs.«134780_j31688268709907_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer's result of the (agreeing) arguments. -/
theorem algebraic : Cert.algebraic_KernelIdeal_ReferenceIdeal := by
  intro m ρ m' ρ' _ hagree
  refine ⟨fun c => Cert.KernelIdeal.Tile.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v14_eq]
  exact Cert.Bridge.ref_eq_kernel m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
